-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S8192x256 : Shape := ⟨2, ![8192, 256]⟩
abbrev S16384x256 : Shape := ⟨2, ![16384, 256]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_v13 : IVec S_ 1) (main_v16 : IVec S8192x16384 1) : IVec S_ 1 :=
  let main_c_5 : IVec S_ 1 := constantI S_ 1 1#1
  let main_v17 : IVec S_ 1 := (fun x v => Host.reduce IntOp.andi x v reducesTo_S8192x16384_S_d0_1 h_S_) main_v16 main_c_5
  let main_v18 : IVec S_ 1 := andi main_v13 main_v17
  main_v18

def fn {F : FTy → Type} [FloatOps F] (main_arg0 : FVec F S8192x16384 .f32) (main_arg1 : FVec F S8192x256 .f32) (main_arg2 : FVec F S16384x256 .f32) (main_arg3 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S8192x16384 .f32 := Host.absf main_arg3
  let main_cst_4 : FVec F S_ .f32 := constant S_ .f32 0x7F800000#32
  let main_v15 : FVec F S8192x16384 .f32 := broadcastInDim S8192x16384 ![] bcast_S_S8192x16384 main_cst_4
  let main_v16 : IVec S8192x16384 1 := cmpf .olt main_v14 main_v15
  fn_part1 (F := F) main_v13 main_v16
-- ==== Kernel.lean ====
abbrev S8192x16384 : Shape := ⟨2, ![8192, 16384]⟩
abbrev S8192x256 : Shape := ⟨2, ![8192, 256]⟩
abbrev S16384x256 : Shape := ⟨2, ![16384, 256]⟩
abbrev S16x1x1024 : Shape := ⟨3, ![16, 1, 1024]⟩
abbrev S1024x1024 : Shape := ⟨2, ![1024, 1024]⟩
abbrev S1024x256 : Shape := ⟨2, ![1024, 256]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S16384 : Shape := ⟨1, ![16384]⟩

abbrev nBuf : Space → Nat
  | .hbm => 27
  | .vmem => 11
  | .smem => 0
  | _ => 0

abbrev bufTy : (tb : Table) → Fin (tcTables nBuf tb) → BufTy
  | .hbm, ⟨0, _⟩ => ⟨S8192x16384, .f32⟩
  | .hbm, ⟨1, _⟩ => ⟨S8192x256, .f32⟩
  | .hbm, ⟨2, _⟩ => ⟨S16384x256, .f32⟩
  | .hbm, ⟨3, _⟩ => ⟨S8192x16384, .f32⟩
  | .hbm, ⟨4, _⟩ => ⟨S8192x256, .bf16⟩
  | .hbm, ⟨5, _⟩ => ⟨S16384x256, .bf16⟩
  | .hbm, ⟨6, _⟩ => ⟨S16x1x1024, .f32⟩
  | .hbm, ⟨7, _⟩ => ⟨S_, .f32⟩
  | .hbm, ⟨8, _⟩ => ⟨S_, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384x256, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S1x1024_S1x1x1024 : S1x1024.ShapeCasts S1x1x1024
  reducesTo_S16x1x1024_S_d0_1_2 : S16x1x1024.ReducesTo [0, 1, 2] S_
  h_S_ : 0 < S_.numel
  reducesTo_S8192x256_S8192_d1 : S8192x256.ReducesTo [1] S8192
  reducesTo_S8192_S_d0 : S8192.ReducesTo [0] S_
  reducesTo_S16384x256_S16384_d1 : S16384x256.ReducesTo [1] S16384
  reducesTo_S16384_S_d0 : S16384.ReducesTo [0] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x16384.size a
  hwx0_0 : ∀ i : grid0.Coords, EltTy.bits .f32 = 32 ∨ (Rect.block (s := S8192x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x16384.size a
  hwx0_1 : ∀ i : grid0.Coords, EltTy.bits .f32 = 32 ∨ (Rect.block (s := S8192x16384) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .bf16 = 32 ∨ (Rect.block (s := S16384x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x1024.size a
  hwx0_4 : ∀ i : grid0.Coords, EltTy.bits .f32 = 32 ∨ (Rect.block (s := S16x1x1024) S1x1x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x16384 : Shape := ⟨2, ![8192, 16384]⟩
abbrev S8192x256 : Shape := ⟨2, ![8192, 256]⟩
abbrev S16384x256 : Shape := ⟨2, ![16384, 256]⟩
abbrev S_ : Shape := ⟨0, ![]⟩
abbrev S8192 : Shape := ⟨1, ![8192]⟩
abbrev S16384 : Shape := ⟨1, ![16384]⟩

abbrev nBuf : Space → Nat
  | .hbm => 28
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x256, .f32⟩
  | .hbm, ⟨2, _⟩ => ⟨S16384x256, .f32⟩
  | .hbm, ⟨3, _⟩ => ⟨S8192x16384, .f32⟩
  | .hbm, ⟨4, _⟩ => ⟨S8192x16384, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S_, .f32⟩
  | .hbm, ⟨9, _⟩ => ⟨S_, .f32⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x256, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]

class Facts₀ : Prop where
  reducesTo_S8192x16384_S_d0_1 : S8192x16384.ReducesTo [0, 1] S_
  h_S_ : 0 < S_.numel
  reducesTo_S8192x256_S8192_d1 : S8192x256.ReducesTo [1] S8192
  reducesTo_S8192_S_d0 : S8192.ReducesTo [0] S_
  reducesTo_S16384x256_S16384_d1 : S16384x256.ReducesTo [1] S16384
  reducesTo_S16384_S_d0 : S16384.ReducesTo [0] S_
  dot_S8192x256_S16384x256_S8192x16384_1_1_0_0_n_n_wf : DotDims.WF S8192x256 S16384x256 S8192x16384 [1] [1] [0] [0] [] []

variable [Facts₀]

def dot_S8192x256_S16384x256_S8192x16384_1_1_0_0_n_n : DotDims S8192x256 S16384x256 S8192x16384 where
  lhsContracting := [1]
  rhsContracting := [1]
  lhsNonContracting := [0]
  rhsNonContracting := [0]
  lhsBatch := []
  rhsBatch := []
  wf := dot_S8192x256_S16384x256_S8192x16384_1_1_0_0_n_n_wf

class Facts : Prop extends Facts₀ where

variable [Facts]
-- ==== Proof.Pieces.lean ====
/-
  What one grid step leaves behind, as values.

  The kernel keeps a running vector of 1024 column totals in a scratch buffer that survives from one grid step to the
  next.  A step either starts a column strip (it first overwrites the scratch with zeros), continues one, or finishes
  one (it also copies the scratch to the output block).  In every case the scratch ends at one and the same expression
  of the four input blocks and of the previous contents of the scratch: previous contents plus the column sums of the
  masked squared residual of this tile.  At the start of a strip the previous contents are the zeros just written; at
  the end of a strip the output block receives what the scratch then holds.  All loads and stores address whole
  buffers, so reading back a buffer that was just stored gives the stored value.
-/
import proofs.«161262_j3925600109323_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of an access to a whole rank-3 buffer are all zero. -/
theorem hz3 : (![0, 0, 0] : Fin 3 → Nat) = fun _ => 0 := funext fun a => by fin_cases a <;> rfl
/-- The offsets of an access to a whole rank-2 buffer are all zero. -/
theorem hz2 : (![0, 0] : Fin 2 → Nat) = fun _ => 0 := funext fun a => by fin_cases a <;> rfl

/-- A step in the middle of a column strip: the scratch, holding `xs0`, ends at `xs0` plus this tile's column sums. -/
theorem scratch_mid (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x1024 .f32) (harg6 : arg6.IsWhole) (arg7 : Memref sig .tc .vmem S1x1x1024 .f32) (harg7 : arg7.IsWhole) (hc0 : ¬cond0_0 i) (hc1 : ¬cond0_1 i)
    (x0 : Vec F S1024x1024 .f32) (x1 : Vec F S1024x1024 .f32) (x2 : Vec F S1024x256 .bf16) (x3 : Vec F S1024x256 .bf16) (xs0 : Vec F S1x1x1024 .f32) :
    sout0_B_0 c i arg2 harg2 arg3 harg3 arg4 harg4 arg5 harg5 arg6 harg6 arg7 harg7 hc0 hc1 x0 x1 x2 x3 xs0 = k0_pay2 x2 x3 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz3]
  simp only [View.readAt_eq_ld, harg2.read_unread, harg3.read_unread, harg4.read_unread, harg5.read_unread, harg7.read_unread,
    View.ld_unit_zero (S := S1024x1024) hz2, View.ld_unit_zero (S := S1024x256) hz2, View.ld_unit_zero (S := S1x1x1024) hz3]

/-- The last step of a column strip leaves the scratch at the same expression, -/
theorem scratch_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x1024 .f32) (harg6 : arg6.IsWhole) (arg7 : Memref sig .tc .vmem S1x1x1024 .f32) (harg7 : arg7.IsWhole) (hc0 : ¬cond0_0 i) (hc1 : cond0_1 i)
    (x0 : Vec F S1024x1024 .f32) (x1 : Vec F S1024x1024 .f32) (x2 : Vec F S1024x256 .bf16) (x3 : Vec F S1024x256 .bf16) (xs0 : Vec F S1x1x1024 .f32) :
    sout0_C_0 c i arg2 harg2 arg3 harg3 arg4 harg4 arg5 harg5 arg6 harg6 arg7 harg7 hc0 hc1 x0 x1 x2 x3 xs0 = k0_pay2 x2 x3 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread,
    View.ld_unit_zero (S := S1024x1024) hz2, View.ld_unit_zero (S := S1024x256) hz2, View.ld_unit_zero (S := S1x1x1024) hz3]

/-- and copies it to the output block: the scratch is read back after its store, so the copy is the stored value. -/
theorem out_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x1024 .f32) (harg6 : arg6.IsWhole) (arg7 : Memref sig .tc .vmem S1x1x1024 .f32) (harg7 : arg7.IsWhole) (hc0 : ¬cond0_0 i) (hc1 : cond0_1 i)
    (x0 : Vec F S1024x1024 .f32) (x1 : Vec F S1024x1024 .f32) (x2 : Vec F S1024x256 .bf16) (x3 : Vec F S1024x256 .bf16) (xs0 : Vec F S1x1x1024 .f32) :
    out0_C_4 c i arg2 harg2 arg3 harg3 arg4 harg4 arg5 harg5 arg6 harg6 arg7 harg7 hc0 hc1 x0 x1 x2 x3 xs0 = k0_pay2 x2 x3 x0 x1 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S1x1x1024) _ hz3]
  simp only [View.readAt_eq_ld, harg2.read_unread, harg3.read_unread, harg4.read_unread, harg5.read_unread, harg7.read_unread,
    View.ld_unit_zero (S := S1024x1024) hz2, View.ld_unit_zero (S := S1024x256) hz2, View.ld_unit_zero (S := S1x1x1024) hz3]

/-- The first step of a column strip: the scratch is overwritten with zeros (`k0_pay1`), read back, and ends at zeros
    plus this tile's column sums. -/
theorem scratch_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x1024 .f32) (harg6 : arg6.IsWhole) (arg7 : Memref sig .tc .vmem S1x1x1024 .f32) (harg7 : arg7.IsWhole) (hc0 : cond0_0 i) (hc1 : ¬cond0_1 i)
    (x0 : Vec F S1024x1024 .f32) (x1 : Vec F S1024x1024 .f32) (x2 : Vec F S1024x256 .bf16) (x3 : Vec F S1024x256 .bf16) :
    sout0_A_0 c i arg2 harg2 arg3 harg3 arg4 harg4 arg5 harg5 arg6 harg6 arg7 harg7 hc0 hc1 x0 x1 x2 x3 = k0_pay2 x2 x3 x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1x1024) hz3, View.readCov_unit_zero (S := S1x1x1024) _ hz3]
  simp only [View.readAt_eq_ld, harg2.read_unread, harg3.read_unread, harg4.read_unread, harg5.read_unread, harg7.read_unread,
    View.ld_unit_zero (S := S1024x1024) hz2, View.ld_unit_zero (S := S1024x256) hz2, View.ld_unit_zero (S := S1x1x1024) hz3]

end Cert.KernelIdeal.Pieces

end
-- ==== Proof.LibTileSums.lean ====
/-
  Sums over consecutive runs, and a double sum regrouped by tiles.

  A sum over a b positions is the sum over a runs of b consecutive positions of the runs' sums (position b i + r is
  position r of run i).  Applied to both axes of a matrix and followed by exchanges of the order of summation, the sum
  over all entries becomes: down the b rows of a tile, over the a tiles of a column strip, over the d columns of the strip,
  over the c strips.  This holds in any commutative monoid, in particular for the extended reals with their infinities.
  Also: a sum over the indices of a three-axis array whose middle axis has one position, as a double sum over the first
  and last coordinates.
-/
import Idealize.ShloMosaic.Lib.ValueIdx
import Mathlib.Algebra.BigOperators.Fin
import Mathlib.Logic.Equiv.Fin.Basic

noncomputable section

namespace Cert.LibTileSums

open Idealize.ShloMosaic Idealize.ShloMosaic.ValueIdx

/-- Position r of run i, among a runs of b consecutive positions, is a position below a b. -/
theorem run_lt {a b N : ℕ} (h : a * b = N) (i : Fin a) (r : Fin b) : b * i.val + r.val < N := by
  have hi := i.isLt
  have hr := r.isLt
  calc b * i.val + r.val < b * i.val + b := by omega
    _ = b * (i.val + 1) := by ring
    _ ≤ b * a := Nat.mul_le_mul_left _ hi
    _ = N := by rw [Nat.mul_comm]; exact h

/-- A sum over a b positions is the sum over the a runs of the sums over each run's b positions. -/
theorem sum_runs {E : Type*} [AddCommMonoid E] {a b N : ℕ} (h : a * b = N) (g : Fin N → E) :
    ∑ n, g n = ∑ i : Fin a, ∑ r : Fin b, g ⟨b * i.val + r.val, run_lt h i r⟩ := by
  subst h
  rw [← Equiv.sum_comp finProdFinEquiv g, Fintype.sum_prod_type]
  refine Finset.sum_congr rfl fun i _ => Finset.sum_congr rfl fun r _ => congrArg g (Fin.ext ?_)
  show r.val + b * i.val = b * i.val + r.val
  exact Nat.add_comm _ _

/-- The sum over a matrix's entries, regrouped by tiles: first down the b rows of a tile, then over the a tiles of a
    column strip, then over the d columns of the strip and the c strips. -/
theorem sum_tiles {E : Type*} [AddCommMonoid E] {a b c d N M : ℕ} (hN : a * b = N) (hM : c * d = M)
    (f : Fin N → Fin M → E) :
    ∑ n, ∑ mm, f n mm
      = ∑ J : Fin c, ∑ q : Fin d, ∑ i : Fin a, ∑ r : Fin b,
          f ⟨b * i.val + r.val, run_lt hN i r⟩ ⟨d * J.val + q.val, run_lt hM J q⟩ := by
  calc ∑ n, ∑ mm, f n mm
      = ∑ i : Fin a, ∑ r : Fin b, ∑ J : Fin c, ∑ q : Fin d,
          f ⟨b * i.val + r.val, run_lt hN i r⟩ ⟨d * J.val + q.val, run_lt hM J q⟩ := by
        rw [sum_runs hN]
        exact Finset.sum_congr rfl fun i _ => Finset.sum_congr rfl fun r _ => sum_runs hM _
    _ = ∑ i : Fin a, ∑ J : Fin c, ∑ r : Fin b, ∑ q : Fin d,
          f ⟨b * i.val + r.val, run_lt hN i r⟩ ⟨d * J.val + q.val, run_lt hM J q⟩ :=
        Finset.sum_congr rfl fun i _ => Finset.sum_comm
    _ = ∑ J : Fin c, ∑ i : Fin a, ∑ r : Fin b, ∑ q : Fin d,
          f ⟨b * i.val + r.val, run_lt hN i r⟩ ⟨d * J.val + q.val, run_lt hM J q⟩ := Finset.sum_comm
    _ = ∑ J : Fin c, ∑ i : Fin a, ∑ q : Fin d, ∑ r : Fin b,
          f ⟨b * i.val + r.val, run_lt hN i r⟩ ⟨d * J.val + q.val, run_lt hM J q⟩ :=
        Finset.sum_congr rfl fun J _ => Finset.sum_congr rfl fun i _ => Finset.sum_comm
    _ = ∑ J : Fin c, ∑ q : Fin d, ∑ i : Fin a, ∑ r : Fin b,
          f ⟨b * i.val + r.val, run_lt hN i r⟩ ⟨d * J.val + q.val, run_lt hM J q⟩ :=
        Finset.sum_congr rfl fun J _ => Finset.sum_comm

/-- A sum over the indices of a three-axis array whose middle axis has one position: over the first and last
    coordinates. -/
theorem sum_idx3_unit {E : Type*} [AddCommMonoid E] {n0 n2 : ℕ} (f : (⟨3, ![n0, 1, n2]⟩ : Shape).Idx → E) :
    ∑ j, f j = ∑ J : Fin n0, ∑ q : Fin n2, f (ix3 J 0 q) := by
  let e : (⟨3, ![n0, 1, n2]⟩ : Shape).Idx ≃ Fin n0 × Fin n2 :=
    { toFun := fun j => (j 0, j 2)
      invFun := fun p => ix3 p.1 0 p.2
      left_inv := fun j => by
        funext d
        match d with
        | ⟨0, _⟩ => rfl
        | ⟨1, _⟩ => exact Subsingleton.elim (α := Fin 1) _ _
        | ⟨2, _⟩ => rfl
      right_inv := fun p => rfl }
  rw [← Equiv.sum_comp e.symm, Fintype.sum_prod_type]
  rfl

end Cert.LibTileSums

end
-- ==== Proof.Spec.lean ====
/-
  The loss's data term.

  For a rating matrix R and a mask K of extent N by M, and factor matrices U (N by D) and W (M by D), the data term of
  the loss is the sum over all entries (n, m) of  (R(n,m) - sum_k U(n,k) W(m,k))^2 K(n,m).  One program adds these
  N M terms in one sweep; the other cuts the rows into a runs of b and the columns into c runs of d, adds each b by d
  tile down its rows, adds the a tiles of one column strip, and finally adds the c d column totals.  Addition of extended
  reals is commutative and associative (they form a commutative monoid, infinities included), so the two groupings of
  the same terms agree (the regrouping itself is stated for any commutative monoid, beside this file); nothing about
  finiteness is used.
-/
import Idealize.ShloMosaic.PureOps.Ideal.Laws
import Idealize.ShloMosaic.Lib.ValueIdx
import proofs.«161262_j3925600109323_2_alg».proof.Proof.LibTileSums

noncomputable section

namespace Cert.DataTerm

open Idealize.ShloMosaic Idealize.ShloMosaic.ValueIdx

/-- One entry's contribution: the squared residual of the rank-D model at (n, m), weighted by the mask. -/
def term {N M D : ℕ} (R : (⟨2, ![N, M]⟩ : Shape).Idx → EReal) (U : (⟨2, ![N, D]⟩ : Shape).Idx → EReal)
    (W : (⟨2, ![M, D]⟩ : Shape).Idx → EReal) (K : (⟨2, ![N, M]⟩ : Shape).Idx → EReal) (n : Fin N) (mm : Fin M) : EReal :=
  (R (ix2 n mm) - ∑ k : Fin D, U (ix2 n k) * W (ix2 mm k)) * (R (ix2 n mm) - ∑ k : Fin D, U (ix2 n k) * W (ix2 mm k))
    * K (ix2 n mm)

end Cert.DataTerm

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.TileSum.lean ====
/-
  One grid step's arithmetic, read at a lane.

  A step holds a 1024 by 1024 tile of ratings and of the mask and the 1024 rows of each factor matrix that belong to the
  tile's rows and columns.  It forms the tile of the model's predictions (row r of the first factor against row q of the
  second), the masked squared residuals, and their column sums, and adds these to the running column totals.  Read at
  lane q the new running total is therefore the old one plus the sum, over the tile's 1024 rows r, of the data term of
  entry (r, q) of the tile.  Over the extended reals a change of number format is the identity and the product into a
  zero accumulator is the plain sum of products, so nothing else remains of the step.
-/
import proofs.«161262_j3925600109323_2_alg».proof.Proof.Gen.KernelIdeal.Skeleton
import proofs.«161262_j3925600109323_2_alg».proof.Proof.Spec
import proofs.«161262_j3925600109323_2_alg».proof.Proof.LibMatmulNT
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The tile product's dimension record, under a short name. -/
abbrev tileDot : DotDims S1024x256 S1024x256 S1024x1024 := dot_S1024x256_S1024x256_S1024x1024_1_1_0_0_n_n

/-- The product's left operand is read at (row of the entry, contraction index), -/
theorem tileDot_lhs0 (i : S1024x1024.Idx) (k : tileDot.contr.Idx) : (tileDot.lhsIdx i k (0 : Fin 2)).val = (i (0 : Fin 2)).val := by
  unfold DotDims.lhsIdx
  rw [dif_neg (show ¬(0 : Fin S1024x256.rank) ∈ tileDot.lhsBatch by decide),
    dif_pos (show (0 : Fin S1024x256.rank) ∈ tileDot.lhsNonContracting by decide)]
  rfl
theorem tileDot_lhs1 (i : S1024x1024.Idx) (k : tileDot.contr.Idx) :
    (tileDot.lhsIdx i k (1 : Fin 2)).val = (k ⟨0, by decide⟩).val :=
  tileDot.lhsIdx_val_of_single rfl i k
/-- and its right operand at (column of the entry, contraction index): both factors are contracted along their second
    axis. -/
theorem tileDot_rhs0 (i : S1024x1024.Idx) (k : tileDot.contr.Idx) : (tileDot.rhsIdx i k (0 : Fin 2)).val = (i (1 : Fin 2)).val := by
  unfold DotDims.rhsIdx
  rw [dif_neg (show ¬(0 : Fin S1024x256.rank) ∈ tileDot.rhsBatch by decide),
    dif_pos (show (0 : Fin S1024x256.rank) ∈ tileDot.rhsNonContracting by decide)]
  rfl
theorem tileDot_rhs1 (i : S1024x1024.Idx) (k : tileDot.contr.Idx) :
    (tileDot.rhsIdx i k (1 : Fin 2)).val = (k ⟨0, by decide⟩).val :=
  tileDot.rhsIdx_val_of_single rfl i k

/-- The tile of predictions at (r, q): row r of the first factor block against row q of the second. -/
theorem pred_apply (x2 x3 : FVec Ideal S1024x256 .bf16) (r q : Fin 1024) :
    matmul tileDot none x2 x3 (constant (F := Ideal) S1024x1024 .f32 0x00000000#32) (ix2 r q)
      = ∑ k : Fin 256, x2 (ix2 r k) * x3 (ix2 q k) :=
  Cert.LibMatmulNT.matmul_zero_nt_ix2 (A := 1024) (K := 256) (B := 1024) tileDot rfl rfl
    tileDot_lhs0 tileDot_lhs1 tileDot_rhs0 tileDot_rhs1 none x2 x3 r q

/-- The zeros a column strip's first step writes into the running totals are the number zero at every lane. -/
theorem zeros_apply (j : S1x1x1024.Idx) : k0_pay1 (F := Ideal) j = 0 := by
  unfold k0_pay1
  refine (congrFun (shapeCast_self _ _) j).trans ?_
  exact Ideal.ofBits_zero_f32

/-- A column sum of a 1024 by 1024 tile, read at column q: the sum over the rows. -/
theorem colsum_apply (src : FVec Ideal S1024x1024 .f32) (h : S1024x1024.Reduces [0] S1024) (hφ : FKind.Formats .f32)
    (hacc : (0x00000000#32 : BitVec 32) = FKind.add.neutral .f32 hφ) (q : Fin 1024) :
    multiReduction .add [0] S1024 src 0x00000000#32 h hφ hacc (ix1 q) = ∑ r : Fin 1024, src (ix2 r q) := by
  refine (Ideal.multiReduction_add_single src 0x00000000#32 h hφ hacc (ix1 q)).trans ?_
  refine Finset.sum_congr rfl fun r _ => congrArg src ?_
  exact funext fun a => Fin.ext (by match a with | ⟨0, _⟩ => rfl | ⟨1, _⟩ => rfl)

/-- THE STEP AT A LANE: the new running total at lane q is the old one plus the tile's data terms down column q. -/
theorem step_apply (x2 x3 : FVec Ideal S1024x256 .bf16) (x0 x1 : FVec Ideal S1024x1024 .f32)
    (xs0 : FVec Ideal S1x1x1024 .f32) (q : Fin 1024) :
    k0_pay2 (F := Ideal) x2 x3 x0 x1 xs0 (ix3 0 0 q)
      = xs0 (ix3 0 0 q) + ∑ r : Fin 1024, Cert.DataTerm.term x0 x2 x3 x1 r q := by
  unfold k0_pay2
  refine (congrFun (shapeCast_self _ _) _).trans ?_
  refine congrArg (xs0 (ix3 0 0 q) + ·) ?_
  refine (shapeCast_ab_1ab_apply _ _ 0 0 q).trans ?_
  refine (shapeCast_a_1a_apply _ _ 0 q).trans ?_
  refine (colsum_apply _ _ _ _ q).trans ?_
  refine Finset.sum_congr rfl fun r _ => ?_
  unfold Cert.DataTerm.term
  show (x0 (ix2 r q) - matmul tileDot none (shapeCast S1024x256 x2 _) (shapeCast S1024x256 x3 _) _ (ix2 r q))
      * (x0 (ix2 r q) - matmul tileDot none (shapeCast S1024x256 x2 _) (shapeCast S1024x256 x3 _) _ (ix2 r q)) * x1 (ix2 r q) = _
  rw [shapeCast_self, shapeCast_self, pred_apply]

end Cert.KernelIdeal.Tile

end
-- ==== Proof.Blocks.lean ====
/-
  The four input tiles of a grid step, as parts of the argument arrays.

  Step t of the 16 by 8 grid works on column strip t / 8 and row strip t % 8.  Its tile of ratings, and of the mask, is
  rows 1024 (t % 8) + r and columns 1024 (t / 8) + q of the whole array; its block of the first factor matrix is that
  matrix's rows 1024 (t % 8) + r, and its block of the second factor matrix is that matrix's rows 1024 (t / 8) + q.  The
  factor matrices reach the kernel through a change of number format, which over the extended reals is the identity.
  Hence the data term of entry (r, q) of the step's tile is the data term of entry (1024 (t % 8) + r, 1024 (t / 8) + q)
  of the whole arrays.
-/
import proofs.«161262_j3925600109323_2_alg».proof.Proof.Gen.KernelIdeal.Frame
import proofs.«161262_j3925600109323_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The block index maps, decided over the grid's 128 points: rows follow t % 8, columns t / 8. -/
theorem index_maps : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = t.val / 8
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- The first factor matrix as the region finds it: the argument, its format changed. -/
theorem V_first (c : Dev nD) :
    (V m c main_v0 : S8192x256.Idx → EReal) = truncf (F := Ideal) .bf16 (m ((c : Thread nD τ).loc main_arg1)) bitsLt_bf16_f32 := by
  show StableHlo.after hostOps0 (fun b => m (c, b)) (Proc.devRef .tc main_v0) = _
  after_results

/-- The second factor matrix as the region finds it. -/
theorem V_second (c : Dev nD) :
    (V m c main_v1 : S16384x256.Idx → EReal) = truncf (F := Ideal) .bf16 (m ((c : Thread nD τ).loc main_arg2)) bitsLt_bf16_f32 := by
  show StableHlo.after hostOps0 (fun b => m (c, b)) (Proc.devRef .tc main_v1) = _
  after_results

/-- The step's tile of ratings. -/
theorem ratings_tile (c : Dev nD) (t : Fin cfg0.N) (i J : ℕ) (hi : t.val % 8 = i) (hJ : t.val / 8 = J) (r q : Fin 1024)
    (hr : 1024 * i + r.val < 8192) (hq : 1024 * J + q.val < 16384) :
    iblk m c 0 t (ix2 r q) = m ((c : Thread nD τ).loc main_arg0) (ix2 ⟨1024 * i + r.val, hr⟩ ⟨1024 * J + q.val, hq⟩) := by
  obtain ⟨e0, e1, -⟩ := index_maps t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * r.val = 1024 * i + r.val; omega
  | ⟨1, _⟩ => show win0_0.index t (1 : Fin 2) * 1024 + 1 * q.val = 1024 * J + q.val; omega

/-- The step's tile of the mask. -/
theorem mask_tile (c : Dev nD) (t : Fin cfg0.N) (i J : ℕ) (hi : t.val % 8 = i) (hJ : t.val / 8 = J) (r q : Fin 1024)
    (hr : 1024 * i + r.val < 8192) (hq : 1024 * J + q.val < 16384) :
    iblk m c 1 t (ix2 r q) = m ((c : Thread nD τ).loc main_arg3) (ix2 ⟨1024 * i + r.val, hr⟩ ⟨1024 * J + q.val, hq⟩) := by
  obtain ⟨-, -, e0, e1, -⟩ := index_maps t
  unfold iblk
  rw [View.read_apply]
  show V m c main_arg3 _ = _
  rw [V_main_arg3]
  refine congrArg (m ((c : Thread nD τ).loc main_arg3)) (funext fun a => Fin.ext ?_)
  match a with
  | ⟨0, _⟩ => show win0_1.index t (0 : Fin 2) * 1024 + 1 * r.val = 1024 * i + r.val; omega
  | ⟨1, _⟩ => show win0_1.index t (1 : Fin 2) * 1024 + 1 * q.val = 1024 * J + q.val; omega

/-- The step's block of the first factor matrix: the rows of the tile's rows. -/
theorem first_block (c : Dev nD) (t : Fin cfg0.N) (i : ℕ) (hi : t.val % 8 = i) (r : Fin 1024) (k : Fin 256)
    (hr : 1024 * i + r.val < 8192) :
    iblk m c 2 t (ix2 r k) = m ((c : Thread nD τ).loc main_arg1) (ix2 ⟨1024 * i + r.val, hr⟩ k) := by
  obtain ⟨-, -, -, -, e0, e1, -⟩ := index_maps t
  unfold iblk
  rw [View.read_apply]
  show V m c main_v0 _ = _
  rw [V_first]
  show m ((c : Thread nD τ).loc main_arg1) _ = _
  refine congrArg (m ((c : Thread nD τ).loc main_arg1)) (funext fun a => Fin.ext ?_)
  match a with
  | ⟨0, _⟩ => show win0_2.index t (0 : Fin 2) * 1024 + 1 * r.val = 1024 * i + r.val; omega
  | ⟨1, _⟩ => show win0_2.index t (1 : Fin 2) * 256 + 1 * k.val = k.val; omega

/-- The step's block of the second factor matrix: the rows of the tile's columns. -/
theorem second_block (c : Dev nD) (t : Fin cfg0.N) (J : ℕ) (hJ : t.val / 8 = J) (q : Fin 1024) (k : Fin 256)
    (hq : 1024 * J + q.val < 16384) :
    iblk m c 3 t (ix2 q k) = m ((c : Thread nD τ).loc main_arg2) (ix2 ⟨1024 * J + q.val, hq⟩ k) := by
  obtain ⟨-, -, -, -, -, -, e0, e1⟩ := index_maps t
  unfold iblk
  rw [View.read_apply]
  show V m c main_v1 _ = _
  rw [V_second]
  show m ((c : Thread nD τ).loc main_arg2) _ = _
  refine congrArg (m ((c : Thread nD τ).loc main_arg2)) (funext fun a => Fin.ext ?_)
  match a with
  | ⟨0, _⟩ => show win0_3.index t (0 : Fin 2) * 1024 + 1 * q.val = 1024 * J + q.val; omega
  | ⟨1, _⟩ => show win0_3.index t (1 : Fin 2) * 256 + 1 * k.val = k.val; omega

/-- THE TILE'S DATA TERMS ARE THE ARRAYS': entry (r, q) of step t's tile contributes what entry
    (1024 (t % 8) + r, 1024 (t / 8) + q) of the whole arrays contributes. -/
theorem tile_term (c : Dev nD) (t : Fin cfg0.N) (i J : ℕ) (hi : t.val % 8 = i) (hJ : t.val / 8 = J) (r q : Fin 1024)
    (hr : 1024 * i + r.val < 8192) (hq : 1024 * J + q.val < 16384) :
    Cert.DataTerm.term (N := 1024) (M := 1024) (D := 256) (iblk m c 0 t) (iblk m c 2 t) (iblk m c 3 t) (iblk m c 1 t) r q
      = Cert.DataTerm.term (N := 8192) (M := 16384) (D := 256) (m ((c : Thread nD τ).loc main_arg0))
          (m ((c : Thread nD τ).loc main_arg1)) (m ((c : Thread nD τ).loc main_arg2)) (m ((c : Thread nD τ).loc main_arg3))
          ⟨1024 * i + r.val, hr⟩ ⟨1024 * J + q.val, hq⟩ := by
  unfold Cert.DataTerm.term
  rw [ratings_tile m c t i J hi hJ r q hr hq, mask_tile m c t i J hi hJ r q hr hq]
  simp only [fun k => first_block m c t i hi r k hr, fun k => second_block m c t J hJ q k hq]

end Cert.KernelIdeal.Blocks

end
-- ==== Proof.Accum.lean ====
/-
  The running column totals, step by step.

  Within column strip J the grid visits the eight row strips in order.  The first step replaces the running totals by
  its tile's column sums, each later step adds its tile's column sums, and the eighth step also copies the totals to
  the output block.  By induction on the row strip, after the step of row strip i the total at lane q is the sum, over
  row strips 0 to i, of the data terms of that strip's 1024 rows in column 1024 J + q of the whole arrays.
-/
import proofs.«161262_j3925600109323_2_alg».proof.Proof.Pieces
import proofs.«161262_j3925600109323_2_alg».proof.Proof.TileSum
import proofs.«161262_j3925600109323_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ)

/-! ## What each kind of step leaves, over the step's own blocks -/

/-- After the first step of a column strip the running totals are zeros plus the tile's column sums. -/
theorem totals_first (c : Dev nD) (t : Fin cfg0.N) (h0 : t.val % 8 = 0) (h1 : ¬t.val % 8 = 7) :
    (outsAt0 m c t.val t.isLt).2 = k0_pay2 (F := Ideal) (iblk m c 2 t) (iblk m c 3 t) (iblk m c 0 t) (iblk m c 1 t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk m c 0 t) (iblk m c 1 t) (iblk m c 2 t) (iblk m c 3 t)

/-- After a middle step they are the previous totals plus the tile's column sums. -/
theorem totals_mid (c : Dev nD) (t : Fin cfg0.N) (h0 : ¬t.val % 8 = 0) (h1 : ¬t.val % 8 = 7) :
    (outsAt0 m c t.val t.isLt).2
      = k0_pay2 (F := Ideal) (iblk m c 2 t) (iblk m c 3 t) (iblk m c 0 t) (iblk m c 1 t) (outsAt0 m c (t.val - 1) (Nat.lt_of_le_of_lt (Nat.sub_le _ _) t.isLt)).2 := by
  rw [outsAt0_B m c t h0 h1]
  dsimp only
  exact Pieces.scratch_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2

/-- After the last step of a column strip likewise, -/
theorem totals_last (c : Dev nD) (t : Fin cfg0.N) (h0 : ¬t.val % 8 = 0) (h1 : t.val % 8 = 7) :
    (outsAt0 m c t.val t.isLt).2
      = k0_pay2 (F := Ideal) (iblk m c 2 t) (iblk m c 3 t) (iblk m c 0 t) (iblk m c 1 t) (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- and the output block then holds the same. -/
theorem out_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  rw [Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2,
    Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2]

/-! ## The totals as sums over row strips -/

/-- The data terms of row strip i (rows 1024 i to 1024 i + 1023) in column 1024 J + q of the whole arrays, added up;
    there are eight row strips, and past them nothing. -/
def stripTerm (c : Dev nD) (J : Fin 16) (q : Fin 1024) (i : ℕ) : EReal :=
  if h : i < 8 then
    ∑ r : Fin 1024, Cert.DataTerm.term (N := 8192) (M := 16384) (D := 256) (m ((c : Thread nD τ).loc main_arg0)) (m ((c : Thread nD τ).loc main_arg1)) (m ((c : Thread nD τ).loc main_arg2)) (m ((c : Thread nD τ).loc main_arg3))
      ⟨1024 * i + r.val, Cert.LibTileSums.run_lt (a := 8) (b := 1024) rfl ⟨i, h⟩ r⟩
      ⟨1024 * J.val + q.val, Cert.LibTileSums.run_lt (a := 16) (b := 1024) rfl J q⟩
  else 0

/-- The column sums of the tile of step 8 J + i, at lane q, are row strip i's data terms. -/
theorem tile_strip (c : Dev nD) (J : Fin 16) (q : Fin 1024) (i : ℕ) (hi : i < 8) (h : 8 * J.val + i < cfg0.N) :
    ∑ r : Fin 1024, Cert.DataTerm.term (N := 1024) (M := 1024) (D := 256) (iblk m c 0 ⟨8 * J.val + i, h⟩)
        (iblk m c 2 ⟨8 * J.val + i, h⟩) (iblk m c 3 ⟨8 * J.val + i, h⟩) (iblk m c 1 ⟨8 * J.val + i, h⟩) r q
      = stripTerm m c J q i := by
  unfold stripTerm
  rw [dif_pos hi]
  refine Finset.sum_congr rfl fun r _ => ?_
  exact Blocks.tile_term m c ⟨8 * J.val + i, h⟩ i J.val (by show (8 * J.val + i) % 8 = i; omega)
    (by show (8 * J.val + i) / 8 = J.val; omega) r q _ _

/-- THE INVARIANT: after the step of row strip i of column strip J, the running total at lane q is the sum of the data
    terms of row strips 0 to i. -/
theorem totals_eq (c : Dev nD) (J : Fin 16) (q : Fin 1024) : ∀ (i : ℕ) (hi : i < 8) (h : 8 * J.val + i < cfg0.N),
    (outsAt0 m c (8 * J.val + i) h).2 (ix3 0 0 q) = ∑ k ∈ Finset.range (i + 1), stripTerm m c J q k
  | 0, hi, h => by
    have h0 : (⟨8 * J.val + 0, h⟩ : Fin cfg0.N).val % 8 = 0 := by show (8 * J.val + 0) % 8 = 0; omega
    have h1 : ¬(⟨8 * J.val + 0, h⟩ : Fin cfg0.N).val % 8 = 7 := by show ¬(8 * J.val + 0) % 8 = 7; omega
    rw [totals_first m c ⟨8 * J.val + 0, h⟩ h0 h1, Tile.step_apply, Tile.zeros_apply, zero_add, Finset.sum_range_one]
    exact tile_strip m c J q 0 hi h
  | i + 1, hi, h => by
    have h0 : ¬(⟨8 * J.val + (i + 1), h⟩ : Fin cfg0.N).val % 8 = 0 := by show ¬(8 * J.val + (i + 1)) % 8 = 0; omega
    have ih := totals_eq c J q i (by omega) (by omega)
    have step : (outsAt0 m c (8 * J.val + (i + 1)) h).2
        = k0_pay2 (F := Ideal) (iblk m c 2 ⟨8 * J.val + (i + 1), h⟩) (iblk m c 3 ⟨8 * J.val + (i + 1), h⟩) (iblk m c 0 ⟨8 * J.val + (i + 1), h⟩) (iblk m c 1 ⟨8 * J.val + (i + 1), h⟩) (outsAt0 m c (8 * J.val + i) (by omega)).2 := by
      by_cases h1 : (⟨8 * J.val + (i + 1), h⟩ : Fin cfg0.N).val % 8 = 7
      · exact totals_last m c ⟨8 * J.val + (i + 1), h⟩ h0 h1
      · exact totals_mid m c ⟨8 * J.val + (i + 1), h⟩ h0 h1
    rw [step, Tile.step_apply, ih, Finset.sum_range_succ (fun k => stripTerm m c J q k) (i + 1)]
    exact congrArg (_ + ·) (tile_strip m c J q (i + 1) hi h)

end Cert.KernelIdeal.Accum

end
-- ==== Proof.Output.lean ====
/-
  The output array after the region: the column totals of the data term.

  The output has one block of 1024 lanes per column strip, written back once, after the strip's eighth step, when it
  holds the running totals.  By the invariant on the totals, lane q of block J is the sum over all eight row strips and
  the 1024 rows of each — that is, over all 8192 rows — of the data terms of column 1024 J + q.  The sixteen blocks
  tile the output array, so the whole array is this one function of the argument arrays.
-/
import proofs.«161262_j3925600109323_2_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen

variable (m : (ℓ : Loc nD τ sig) → Buf (Elt Ideal) ℓ)

/-- The total of column 1024 J + q: its data terms over the eight row strips of 1024 rows. -/
def colTotal (c : Dev nD) (J : Fin 16) (q : Fin 1024) : EReal :=
  ∑ i : Fin 8, ∑ r : Fin 1024, Cert.DataTerm.term (N := 8192) (M := 16384) (D := 256) (m ((c : Thread nD τ).loc main_arg0)) (m ((c : Thread nD τ).loc main_arg1)) (m ((c : Thread nD τ).loc main_arg2)) (m ((c : Thread nD τ).loc main_arg3))
    ⟨1024 * i.val + r.val, Cert.LibTileSums.run_lt (a := 8) (b := 1024) rfl i r⟩
    ⟨1024 * J.val + q.val, Cert.LibTileSums.run_lt (a := 16) (b := 1024) rfl J q⟩

/-- The output array as a function of the argument arrays: entry (J, 0, q) is the total of column 1024 J + q. -/
def colTotals (c : Dev nD) : S16x1x1024.Idx → EReal :=
  fun j => colTotal m c ⟨(j 0).val, (j 0).isLt⟩ ⟨(j 2).val, (j 2).isLt⟩

theorem colTotals_at (c : Dev nD) (j : S16x1x1024.Idx) (J : Fin 16) (q : Fin 1024) (h0 : (j 0).val = J.val)
    (h2 : (j 2).val = q.val) : colTotals m c j = colTotal m c J q := by
  obtain ⟨Jv, hJ⟩ := J
  obtain ⟨qv, hq⟩ := q
  dsimp only at h0 h2
  subst h0 h2
  rfl

/-- The eight row strips' sums, added up, are the column's total. -/
theorem strips_total (c : Dev nD) (J : Fin 16) (q : Fin 1024) :
    ∑ k ∈ Finset.range (7 + 1), Accum.stripTerm m c J q k = colTotal m c J q := by
  rw [Finset.sum_range]
  unfold colTotal
  refine Finset.sum_congr rfl fun i _ => ?_
  unfold Accum.stripTerm
  rw [dif_pos i.isLt]

/-- Which block of the output a step addresses: the column strip's. -/
theorem out_index : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- The running totals do not depend on how a step's number is written. -/
theorem outsAt_congr (c : Dev nD) {n n' : ℕ} (e : n = n') (h : n < cfg0.N) (h' : n' < cfg0.N) :
    outsAt0 m c n h = outsAt0 m c n' h' := by
  subst e
  rfl

/-- WHAT A WRITE-BACK WRITES: the step's block of the column totals. -/
theorem flushed_eq (c : Dev nD) (t : Fin cfg0.N) (hf : (cfg0.win 4).flush t = true) :
    (dats m 0 c).flushed 4 t = ((cfg0.win 4).blk t).view.read (Elt Ideal) (colTotals m c) := by
  have hN : cfg0.N = 128 := N_0
  have h7 : t.val % 8 = 7 := (flush0_4 t).mp hf
  have h0 : ¬t.val % 8 = 0 := by omega
  have ht := t.isLt
  obtain ⟨e0, e1, e2⟩ := out_index t
  show (cfg0.win 4).cut (grid0.coords t) ((dats m 0 c).after 4 t) = _
  rw [after0_4, Accum.out_last m c t h0 h7]
  refine funext fun (y : S1x1x1024.Idx) => ?_
  obtain ⟨u, v, q, rfl⟩ : ∃ (u v : Fin 1) (q : Fin 1024), y = ix3 u v q := ⟨y 0, y 1, y 2, eq_ix3 y⟩
  obtain rfl : u = 0 := Subsingleton.elim _ _
  obtain rfl : v = 0 := Subsingleton.elim _ _
  show (outsAt0 m c t.val t.isLt).2 (ix3 0 0 q) = colTotals m c (((cfg0.win 4).blk t).view.emb (ix3 0 0 q))
  have hJ : t.val / 8 < 16 := by omega
  have hn : 8 * (⟨t.val / 8, hJ⟩ : Fin 16).val + 7 < cfg0.N := by show 8 * (t.val / 8) + 7 < cfg0.N; omega
  rw [outsAt_congr m c (show t.val = 8 * (⟨t.val / 8, hJ⟩ : Fin 16).val + 7 by show t.val = 8 * (t.val / 8) + 7; omega) t.isLt hn,
    Accum.totals_eq m c ⟨t.val / 8, hJ⟩ q 7 (by omega) hn, strips_total]
  refine (colTotals_at m c _ ⟨t.val / 8, hJ⟩ q ?_ ?_).symm
  · show win0_4.index t (0 : Fin 3) * 1 + 1 * (0 : Fin 1).val = t.val / 8
    rw [e0]; simp
  · show win0_4.index t (2 : Fin 3) * 1024 + 1 * q.val = q.val
    rw [e2]; omega

/-- An index of the output array is in a step's block iff each coordinate is in the block's range on its axis. -/
theorem mem_blk (t : Fin cfg0.N) (i : S16x1x1024.Idx) :
    i ∈ ((cfg0.win 4).blk t).view.set ↔ ∀ a : Fin 3, win0_4.index t a * S1x1x1024.size a ≤ (i a).val
      ∧ (i a).val < win0_4.index t a * S1x1x1024.size a + S1x1x1024.size a := by
  show i ∈ ((View.whole main_v2).slice (win0_4.rect t)).set ↔ _
  rw [View.set_slice_whole, Rect.mem_set_unit]
  exact Iff.rfl

/-- Every index of the output array lies in the block some write-back writes: block J is written after step 8 J + 7. -/
theorem cover (i : S16x1x1024.Idx) :
    ∃ t : Fin cfg0.N, (cfg0.win 4).flush t = true ∧ i ∈ ((cfg0.win 4).blk t).view.set := by
  have hN : cfg0.N = 128 := N_0
  have hi0 : (i 0).val < 16 := (i 0).isLt
  have hi1 : (i 1).val < 1 := (i 1).isLt
  have hi2 : (i 2).val < 1024 := (i 2).isLt
  have hlt : 8 * (i 0).val + 7 < cfg0.N := by omega
  obtain ⟨e0, e1, e2⟩ := out_index ⟨8 * (i 0).val + 7, hlt⟩
  have e0' : win0_4.index ⟨8 * (i 0).val + 7, hlt⟩ (0 : Fin 3) = (i 0).val := by
    rw [e0]; show (8 * (i 0).val + 7) / 8 = (i 0).val; omega
  refine ⟨⟨8 * (i 0).val + 7, hlt⟩, (flush0_4 _).mpr (by show (8 * (i 0).val + 7) % 8 = 7; omega), ?_⟩
  rw [mem_blk]
  intro a
  match a with
  | ⟨0, _⟩ =>
    show win0_4.index ⟨8 * (i 0).val + 7, hlt⟩ (0 : Fin 3) * 1 ≤ (i 0).val
      ∧ (i 0).val < win0_4.index ⟨8 * (i 0).val + 7, hlt⟩ (0 : Fin 3) * 1 + 1
    rw [e0']; omega
  | ⟨1, _⟩ =>
    show win0_4.index ⟨8 * (i 0).val + 7, hlt⟩ (1 : Fin 3) * 1 ≤ (i 1).val
      ∧ (i 1).val < win0_4.index ⟨8 * (i 0).val + 7, hlt⟩ (1 : Fin 3) * 1 + 1
    rw [e1]; omega
  | ⟨2, _⟩ =>
    show win0_4.index ⟨8 * (i 0).val + 7, hlt⟩ (2 : Fin 3) * 1024 ≤ (i 2).val
      ∧ (i 2).val < win0_4.index ⟨8 * (i 0).val + 7, hlt⟩ (2 : Fin 3) * 1024 + 1024
    rw [e2]; omega

/-- THE OUTPUT ARRAY AFTER THE REGION is the column totals. -/
theorem final (c : Dev nD) : (dats m 0 c).arrAt 4 cfg0.N = colTotals m c :=
  (dats m 0 c).arrAt_eq_of_cover 4 (colTotals m c) (flushed_eq m c) cover

end Cert.KernelIdeal.Output

end
-- ==== Proof.HostSide.lean ====
/-
  The two host computations both programs share: a total sum, and the regulariser.

  Both programs finish on the host.  Each adds up an array into one number (the sixteen by 1024 column totals in one
  program, all 8192 by 16384 data terms in the other): over the extended reals such a sum, started from an initial
  value, is the initial value plus the sum of all entries.  Each then adds, for either factor matrix, a fixed multiple of
  the sum of the Euclidean norms of its rows.  That regulariser is the same sequence of operations on the same argument
  in both programs, so it is named here once and never opened.
-/
import Idealize.ShloMosaic.PureOps.Ideal.Laws
import Idealize.ShloMosaic.Lib.ValueIdx

noncomputable section

namespace Cert.HostSide

open Idealize.ShloMosaic Idealize.ShloMosaic.ValueIdx

/-- A sum of a whole array into a single number is the initial value plus the sum of the entries. -/
theorem total_apply {s : Shape} {axes : List (Fin s.rank)} (x : FVec Ideal s .f32) (init : FVec Ideal ⟨0, ![]⟩ .f32)
    (h : s.ReducesTo axes ⟨0, ![]⟩) (hu : 0 < (⟨0, ![]⟩ : Shape).numel) (i : (⟨0, ![]⟩ : Shape).Idx) :
    Host.reduceAdd (F := Ideal) x init h hu i = init (Shape.Idx.first hu) + ∑ j : s.Idx, x j := by
  simp only [Host.reduceAdd, Ideal.hostReduceAdd_def]
  exact Ideal.hostReduceAdd_total h (fun b => b.elim0) x _ i

/-- The regulariser of a factor matrix X with A rows: a fixed multiple (the word 0x3DCCCCCD, the number format's
    nearest to one tenth) of the sum over the rows of the square root of the row's sum of squares. -/
def rowNorms {A D : ℕ} (X : FVec Ideal ⟨2, ![A, D]⟩ .f32)
    (h1 : (⟨2, ![A, D]⟩ : Shape).ReducesTo [1] ⟨1, ![A]⟩) (h2 : (⟨1, ![A]⟩ : Shape).ReducesTo [0] ⟨0, ![]⟩)
    (hu : 0 < (⟨0, ![]⟩ : Shape).numel) : FVec Ideal ⟨0, ![]⟩ .f32 :=
  mulf (constant (F := Ideal) ⟨0, ![]⟩ .f32 0x3DCCCCCD#32)
    (Host.reduceAdd (F := Ideal)
      (Host.sqrt (F := Ideal) (Host.reduceAdd (F := Ideal) (mulf X X) (constant (F := Ideal) ⟨0, ![]⟩ .f32 0x00000000#32) h1 hu))
      (constant (F := Ideal) ⟨0, ![]⟩ .f32 0x00000000#32) h2 hu)

/-- The loss: the data term's total (summed from the zero word) plus the two regularisers. -/
def loss {s : Shape} {axes : List (Fin s.rank)} {A B D : ℕ} (x : FVec Ideal s .f32) (h : s.ReducesTo axes ⟨0, ![]⟩)
    (U : FVec Ideal ⟨2, ![A, D]⟩ .f32) (hU1 : (⟨2, ![A, D]⟩ : Shape).ReducesTo [1] ⟨1, ![A]⟩)
    (hU2 : (⟨1, ![A]⟩ : Shape).ReducesTo [0] ⟨0, ![]⟩)
    (W : FVec Ideal ⟨2, ![B, D]⟩ .f32) (hW1 : (⟨2, ![B, D]⟩ : Shape).ReducesTo [1] ⟨1, ![B]⟩)
    (hW2 : (⟨1, ![B]⟩ : Shape).ReducesTo [0] ⟨0, ![]⟩)
    (hu : 0 < (⟨0, ![]⟩ : Shape).numel) : FVec Ideal ⟨0, ![]⟩ .f32 :=
  addf (addf (Host.reduceAdd (F := Ideal) x (constant (F := Ideal) ⟨0, ![]⟩ .f32 0x00000000#32) h hu)
    (rowNorms U hU1 hU2 hu)) (rowNorms W hW1 hW2 hu)

/-- Two losses whose arrays have the same total, over the same factor matrices, are equal. -/
theorem loss_congr {s s' : Shape} {axes : List (Fin s.rank)} {axes' : List (Fin s'.rank)} {A B D : ℕ}
    (x : FVec Ideal s .f32) (h : s.ReducesTo axes ⟨0, ![]⟩) (x' : FVec Ideal s' .f32) (h' : s'.ReducesTo axes' ⟨0, ![]⟩)
    (U : FVec Ideal ⟨2, ![A, D]⟩ .f32) (hU1 hU1' : (⟨2, ![A, D]⟩ : Shape).ReducesTo [1] ⟨1, ![A]⟩)
    (hU2 hU2' : (⟨1, ![A]⟩ : Shape).ReducesTo [0] ⟨0, ![]⟩)
    (W : FVec Ideal ⟨2, ![B, D]⟩ .f32) (hW1 hW1' : (⟨2, ![B, D]⟩ : Shape).ReducesTo [1] ⟨1, ![B]⟩)
    (hW2 hW2' : (⟨1, ![B]⟩ : Shape).ReducesTo [0] ⟨0, ![]⟩)
    (hu hu' : 0 < (⟨0, ![]⟩ : Shape).numel) (hsum : ∑ j : s.Idx, x j = ∑ j : s'.Idx, x' j) :
    loss x h U hU1 hU2 W hW1 hW2 hu = loss x' h' U hU1' hU2' W hW1' hW2' hu' := by
  unfold loss
  refine congrArg (fun e => addf (addf e (rowNorms U hU1 hU2 hu)) (rowNorms W hW1 hW2 hu)) ?_
  funext i
  rw [total_apply, total_apply, hsum]

end Cert.HostSide

end
-- ==== Proof.LibTypedRef.lean ====
/-
  A typed reference's two transports cancel.

  A host operation stated over typed references moves each operand from its buffer's contents to contents at the
  value's type, and the result back.  The two moves are transports along one equation of types, in opposite
  directions, so one after the other is the identity; this holds for any typed reference, with nothing about which
  buffer it is.
-/
import Idealize.ShloMosaic.Lib.StableHlo

namespace Cert.LibTypedRef

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h1, h2⟩ := x
  subst h
  rfl

/-- Contents of the buffer moved to the value's type and back are the contents. -/
theorem toBuf_ofBuf (x : TRef sig T) (v : x.ref.ty.Contents Val) : x.toBuf (x.ofBuf v) = v := by
  obtain ⟨r, h, h1, h2⟩ := x
  subst h
  rfl

end Cert.LibTypedRef
-- ==== Proof.Tail.lean ====
/-
  The kernel program's result: the loss over the column totals.

  After the region the kernel's program sums the output array (the sixteen by 1024 column totals) into one number and
  adds the two regularisers, computed from the factor matrices as the program was given them.  So its result is the
  loss whose summed array is the column totals.
-/
import proofs.«161262_j3925600109323_2_alg».proof.Proof.Output
import proofs.«161262_j3925600109323_2_alg».proof.Proof.HostSide
import proofs.«161262_j3925600109323_2_alg».proof.Proof.LibTypedRef

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

variable (m : (ℓ : Loc nD τ sig) → Buf (Elt Ideal) ℓ)

set_option maxHeartbeats 1600000 in
/-- The result buffer after the host operations that follow the region. -/
theorem result_eq (c : Dev nD) :
    Pipeline.afterTail₀ cfgs (dats m) 0 (V0 m) [hostOps1, hostOps1_1, hostOps1_2, hostOps1_3, hostOps1_4] c main_v11
      = Cert.HostSide.loss (Output.colTotals m c) reducesTo_S16x1x1024_S_d0_1_2
          (m ((c : Thread nD τ).loc main_arg1)) reducesTo_S8192x256_S8192_d1 reducesTo_S8192_S_d0
          (m ((c : Thread nD τ).loc main_arg2)) reducesTo_S16384x256_S16384_d1 reducesTo_S16384_S_d0 h_S_ := by
  unfold Pipeline.afterTail₀
  simp only [hostOps1, hostOps1_1, hostOps1_2, hostOps1_3, hostOps1_4, List.flatten_cons, List.flatten_nil,
    List.append_nil, List.cons_append, List.nil_append]
  after_results
  simp only [Cert.LibTypedRef.ofBuf_toBuf, Cert.LibTypedRef.toBuf_ofBuf]
  have hOut := Pipeline.withArrays_arr spec0 launch0.win.arr_inj c (V0 m c) (fun w => (dats m 0 c).arrAt w cfg0.N) 4
  have hU := Pipeline.withArrays_of_ne spec0 c (V0 m c) (fun w => (dats m 0 c).arrAt w cfg0.N) main_arg1 (by decide)
  have hW := Pipeline.withArrays_of_ne spec0 c (V0 m c) (fun w => (dats m 0 c).arrAt w cfg0.N) main_arg2 (by decide)
  rw [hU, hW,
    show Pipeline.withArrays (cfgs 0).spec c (V0 m c) (fun w => (dats m 0 c).arrAt w (cfgs 0).N) (Proc.devRef .tc main_v2)
      = (dats m 0 c).arrAt 4 cfg0.N from hOut,
    show V0 m c (Proc.devRef .tc main_arg1) = m ((c : Thread nD τ).loc main_arg1) from V_main_arg1 m c,
    show V0 m c (Proc.devRef .tc main_arg2) = m ((c : Thread nD τ).loc main_arg2) from V_main_arg2 m c,
    Output.final m c]
  rfl

end Cert.KernelIdeal.Tail

end
-- ==== Proof.RefValue.lean ====
/-
  The reference's result: the loss over all data terms.

  The reference forms the whole 8192 by 16384 matrix of predictions by one product of the factor matrices (each row of
  the first against each row of the second), subtracts it from the ratings, squares, weights by the mask, and sums all
  entries; then it adds the two regularisers.  Read at entry (n, m) its array of summands is the data term of (n, m).
-/
import proofs.«161262_j3925600109323_2_alg».proof.Proof.Gen.ReferenceIdeal.Read
import proofs.«161262_j3925600109323_2_alg».proof.Proof.Spec
import proofs.«161262_j3925600109323_2_alg».proof.Proof.HostSide

noncomputable section

namespace Cert.ReferenceIdeal.RefValue

open Cert.ReferenceIdeal Cert.ReferenceIdeal.Gen Cert.ReferenceIdeal.Read Idealize.ShloMosaic Idealize.ShloMosaic.ValueIdx

/-- The rows the product reads at entry (n, m): row n of the first factor, -/
theorem lrow (n : Fin 8192) (mm : Fin 16384) (k : Fin 256) : lidx_main_v0 (ix2 n mm) k = ix2 n k :=
  funext fun a => Fin.ext (by match a with | ⟨0, _⟩ => rfl | ⟨1, _⟩ => rfl)
/-- and row m of the second. -/
theorem rrow (n : Fin 8192) (mm : Fin 16384) (k : Fin 256) : ridx_main_v0 (ix2 n mm) k = ix2 mm k :=
  funext fun a => Fin.ext (by match a with | ⟨0, _⟩ => rfl | ⟨1, _⟩ => rfl)

/-- THE REFERENCE'S SUMMANDS: at entry (n, m), the data term of (n, m). -/
theorem summand_apply (R : FVec Ideal S8192x16384 .f32) (U : FVec Ideal S8192x256 .f32) (W : FVec Ideal S16384x256 .f32)
    (K : FVec Ideal S8192x16384 .f32) (n : Fin 8192) (mm : Fin 16384) :
    val_main_v3 (F := Ideal) R U W K (ix2 n mm) = Cert.DataTerm.term R U W K n mm := by
  rw [val_main_v3_apply, val_main_v2_apply, val_main_v1_apply, val_main_v0_apply]
  simp only [lrow, rrow]
  rfl

/-- The sum of all the reference's summands is the sum of the data terms over rows and columns. -/
theorem summands_total (R : FVec Ideal S8192x16384 .f32) (U : FVec Ideal S8192x256 .f32) (W : FVec Ideal S16384x256 .f32)
    (K : FVec Ideal S8192x16384 .f32) :
    ∑ j : S8192x16384.Idx, val_main_v3 (F := Ideal) R U W K j
      = ∑ n : Fin 8192, ∑ mm : Fin 16384, Cert.DataTerm.term R U W K n mm := by
  rw [sum_idx2]
  exact Finset.sum_congr rfl fun n _ => Finset.sum_congr rfl fun mm _ => summand_apply R U W K n mm

/-- The reference's result is the loss of its summands and the two factor matrices. -/
theorem result_eq (R : FVec Ideal S8192x16384 .f32) (U : FVec Ideal S8192x256 .f32) (W : FVec Ideal S16384x256 .f32)
    (K : FVec Ideal S8192x16384 .f32) :
    val_main_v12 (F := Ideal) R U W K
      = Cert.HostSide.loss (val_main_v3 (F := Ideal) R U W K) reducesTo_S8192x16384_S_d0_1 U reducesTo_S8192x256_S8192_d1
          reducesTo_S8192_S_d0 W reducesTo_S16384x256_S16384_d1 reducesTo_S16384_S_d0 h_S_ := rfl

end Cert.ReferenceIdeal.RefValue

end
-- ==== Proof.lean ====
/-
  The masked squared-error loss of a rank-256 factor model, tiled against whole.

  Both programs compute
      sum over (n, m) of (R(n,m) - sum_k U(n,k) W(m,k))^2 K(n,m)  +  c sum_n |U(n,.)|  +  c sum_m |W(m,.)|
  for ratings R and a mask K of extent 8192 by 16384 and factor matrices U (8192 by 256) and W (16384 by 256).  The
  reference sums the 8192 times 16384 data terms in one sweep.  The kernel walks a grid of sixteen column strips by
  eight row strips of 1024 by 1024 tiles; in a column strip it keeps 1024 running column totals, adding each tile's
  column sums, and writes them out after the eighth row strip; the sixteen by 1024 totals are then summed on the host.
  The two regularisers are computed by the same host operations from the same arguments in both programs.

  Over the extended reals a change of number format is the identity and the kernel's matrix product into a zero
  accumulator is the plain sum of products, so a tile's entries are the reference's data terms; and addition of
  extended reals is commutative and associative, so the kernel's grouping of the sum (rows of a tile, tiles of a
  column strip, columns, strips) is the reference's single sum.  No finiteness of the inputs is used.  The idealised
  kernel is the kernel's own text read over the extended reals, so nothing is owed for it.
-/
import proofs.«161262_j3925600109323_2_alg».proof.Defs
import proofs.«161262_j3925600109323_2_alg».proof.Proof.Gen.Kernel.Frame
import proofs.«161262_j3925600109323_2_alg».proof.Proof.Gen.KernelIdeal.Frame
import proofs.«161262_j3925600109323_2_alg».proof.Proof.Gen.ReferenceIdeal.Run
import proofs.«161262_j3925600109323_2_alg».proof.Proof.Gen.Pre_finite_inputs
import proofs.«161262_j3925600109323_2_alg».proof.Proof.Tail
import proofs.«161262_j3925600109323_2_alg».proof.Proof.RefValue

set_option maxRecDepth 16384

noncomputable section

open Idealize.ShloMosaic Idealize.ShloMosaic.TcCoe Idealize.SL.Sem Idealize.ShloMosaic.ValueIdx

namespace Cert.Proof

/-- The kernel's result as a function of its argument arrays: the loss over the column totals. -/
abbrev kernelLoss (m : (ℓ : Loc Cert.KernelIdeal.nD Cert.KernelIdeal.τ Cert.KernelIdeal.sig) → Buf (Elt Ideal) ℓ) (c : Dev Cert.KernelIdeal.nD) :
    FVec Ideal ⟨0, ![]⟩ .f32 :=
  Cert.HostSide.loss (Cert.KernelIdeal.Output.colTotals m c) Cert.KernelIdeal.Facts₀.reducesTo_S16x1x1024_S_d0_1_2
    (m ((c : Thread Cert.KernelIdeal.nD Cert.KernelIdeal.τ).loc Cert.KernelIdeal.main_arg1)) Cert.KernelIdeal.Facts₀.reducesTo_S8192x256_S8192_d1
    Cert.KernelIdeal.Facts₀.reducesTo_S8192_S_d0
    (m ((c : Thread Cert.KernelIdeal.nD Cert.KernelIdeal.τ).loc Cert.KernelIdeal.main_arg2)) Cert.KernelIdeal.Facts₀.reducesTo_S16384x256_S16384_d1
    Cert.KernelIdeal.Facts₀.reducesTo_S16384_S_d0 Cert.KernelIdeal.Facts₀.h_S_

/-- THE KERNEL PROGRAM'S RUN over the extended reals: it ends, its result the loss over the column totals, its arguments
    as they were. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v11) = kernelLoss m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨((h c).2 Cert.KernelIdeal.main_v11 (Pipeline.mem_restRefs_of Cert.KernelIdeal.main_v11 (by decide) (by decide))).trans
        (Cert.KernelIdeal.Tail.result_eq m c),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).1 1).trans (((Cert.KernelIdeal.Gen.dats m 0 c).arrAt_in 1 rfl _).trans
        ((Cert.KernelIdeal.Gen.A_eq m c 1).trans (Cert.KernelIdeal.Gen.V_main_arg3 m c)))⟩)
    (Cert.KernelIdeal.Gen.run_main m ρ)

/-- THE REGROUPING: the sixteen by 1024 column totals add up to the sum of all data terms. -/
theorem totals_sum (m : (ℓ : Loc Cert.KernelIdeal.nD Cert.KernelIdeal.τ Cert.KernelIdeal.sig) → Buf (Elt Ideal) ℓ) (c : Dev Cert.KernelIdeal.nD) :
    ∑ j : Cert.KernelIdeal.S16x1x1024.Idx, Cert.KernelIdeal.Output.colTotals m c j
      = ∑ n : Fin 8192, ∑ mm : Fin 16384, Cert.DataTerm.term (N := 8192) (M := 16384) (D := 256)
          (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3)) n mm := by
  rw [Cert.LibTileSums.sum_idx3_unit, Cert.LibTileSums.sum_tiles (a := 8) (b := 1024) (c := 16) (d := 1024) rfl rfl]
  refine Finset.sum_congr rfl fun J _ => Finset.sum_congr rfl fun q _ => ?_
  exact (Cert.KernelIdeal.Output.colTotals_at m c (ix3 J 0 q) J q rfl rfl).trans rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealised kernel is the kernel's text unchanged. -/
theorem preserves : Cert.preserves_Kernel_KernelIdeal := trivial

/-- Both programs end at the same loss: the kernel's over its column totals, the reference's over all data terms of
    arguments that agree, and the two arrays have the same sum. -/
theorem algebraic : Cert.algebraic_KernelIdeal_ReferenceIdeal := by
  intro m ρ m' ρ' _ hagree
  refine ⟨fun c => kernelLoss m c, kernel_run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v12_eq, Cert.ReferenceIdeal.RefValue.result_eq, (hagree c).1, (hagree c).2.1, (hagree c).2.2.1, (hagree c).2.2.2]
  exact Cert.HostSide.loss_congr _ _ _ _ _ _ _ _ _ _ _ _ _ _ _ _
    ((Cert.ReferenceIdeal.RefValue.summands_total _ _ _ _).trans (totals_sum m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
